-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128 : Shape := ⟨1, ![128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg11 : FVec F S256 .f32) (main_arg12 : FVec F S256x40 .f32) (main_arg13 : FVec F S40 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x40 .f32 := Host.absf main_arg12
  let main_cst_20 : FVec F S_ .f32 := constant S_ .f32 0x7F800000#32
  let main_v55 : FVec F S256x40 .f32 := broadcastInDim S256x40 ![] bcast_S_S256x40 main_cst_20
  let main_v56 : IVec S256x40 1 := cmpf .olt main_v54 main_v55
  let main_c_21 : IVec S_ 1 := constantI S_ 1 1#1
  let main_v57 : IVec S_ 1 := (fun x v => Host.reduce IntOp.andi x v reducesTo_S256x40_S_d0_1 h_S_) main_v56 main_c_21
  let main_v58 : IVec S_ 1 := andi main_v53 main_v57
  let main_v59 : FVec F S40 .f32 := Host.absf main_arg13
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  let main_cst_24 : FVec F S_ .f32 := constant S_ .f32 0x00000000#32
  let main_v64 : FVec F S256 .f32 := broadcastInDim S256 ![] bcast_S_S256 main_cst_24
  let main_v65 : IVec S256 1 := cmpf .oge main_arg11 main_v64
  let main_c_25 : IVec S_ 1 := constantI S_ 1 1#1
  let main_v66 : IVec S_ 1 := (fun x v => Host.reduce IntOp.andi x v reducesTo_S256_S_d0 h_S_) main_v65 main_c_25
  let main_v67 : IVec S_ 1 := andi main_v63 main_v66
  main_v67

def fn_part2 {F : FTy → Type} [FloatOps F] (main_arg8 : FVec F S256 .f32) (main_arg9 : FVec F S256 .f32) (main_arg10 : FVec F S256 .f32) (main_arg11 : FVec F S256 .f32) (main_arg12 : FVec F S256x40 .f32) (main_arg13 : FVec F S40 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg11 main_arg12 main_arg13 main_v48 main_v49 main_v50

def fn_part1 {F : FTy → Type} [FloatOps F] (main_arg5 : FVec F S128 .f32) (main_arg6 : FVec F S128x256 .f32) (main_arg7 : FVec F S256 .f32) (main_arg8 : FVec F S256 .f32) (main_arg9 : FVec F S256 .f32) (main_arg10 : FVec F S256 .f32) (main_arg11 : FVec F S256 .f32) (main_arg12 : FVec F S256x40 .f32) (main_arg13 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x600000 32) (main_arg2 : FVec F S128 .f32) (main_arg3 : FVec F S128 .f32) (main_arg4 : FVec F S128 .f32) (main_arg5 : FVec F S128 .f32) (main_arg6 : FVec F S128x256 .f32) (main_arg7 : FVec F S256 .f32) (main_arg8 : FVec F S256 .f32) (main_arg9 : FVec F S256 .f32) (main_arg10 : FVec F S256 .f32) (main_arg11 : FVec F S256 .f32) (main_arg12 : FVec F S256x40 .f32) (main_arg13 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x600000 : Shape := ⟨2, ![2, 600000]⟩
abbrev S128 : Shape := ⟨1, ![128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S1x600000 : Shape := ⟨2, ![1, 600000]⟩
abbrev S600000 : Shape := ⟨1, ![600000]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S600000x256 : Shape := ⟨2, ![600000, 256]⟩
abbrev S256x128 : Shape := ⟨2, ![256, 128]⟩
abbrev S50000x40 : Shape := ⟨2, ![50000, 40]⟩

abbrev nBuf : Space → Nat
  | .hbm => 84
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x40, .f32⟩
  | .hbm, ⟨13, _⟩ => ⟨S40, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S50000x128, .bf16⟩
  | .hbm, ⟨55, _⟩ => ⟨S128x256, .bf16⟩
  | .hbm, ⟨56, _⟩ => ⟨S1x256, .f32⟩
  | .hbm, ⟨57, _⟩ => ⟨S1x256, .f32⟩
  | .hbm, ⟨58, _⟩ => ⟨S50000x256, .f32⟩
  | .hbm, ⟨59, _⟩ => ⟨S_, .i32⟩
  | .hbm, ⟨60, _⟩ => ⟨S600000, .i32⟩
  | .hbm, ⟨61, _⟩ => ⟨S600000, .i1⟩
  | .hbm, ⟨62, _⟩ => ⟨S_, .i32⟩
  | .hbm, ⟨63, _⟩ => ⟨S600000, .i32⟩
  | .hbm, ⟨64, _⟩ => ⟨S600000, .i32⟩
  | .hbm, ⟨65, _⟩ => ⟨S600000, .i32⟩
  | .hbm, ⟨66, _⟩ => ⟨S600000x1, .i32⟩
  | .hbm, ⟨67, _⟩ => ⟨S600000x256, .f32⟩
  | .hbm, ⟨68, _⟩ => ⟨S_, .f32⟩
  | .hbm, ⟨69, _⟩ => ⟨S50000x256, .f32⟩
  | .hbm, ⟨70, _⟩ => ⟨S600000x1, .i32⟩
  | .hbm, ⟨71, _⟩ => ⟨S50000x256, .f32⟩
  | .hbm, ⟨72, _⟩ => ⟨S50000x256, .f32⟩
  | .hbm, ⟨73, _⟩ => ⟨S_, .i32⟩
  | .hbm, ⟨74, _⟩ => ⟨S_, .f32⟩
  | .hbm, ⟨75, _⟩ => ⟨S256x128, .f32⟩
  | .hbm, ⟨76, _⟩ => ⟨S_, .i32⟩
  | .hbm, ⟨77, _⟩ => ⟨S_, .f32⟩
  | .hbm, ⟨78, _⟩ => ⟨S128, .f32⟩
  | .hbm, ⟨79, _⟩ => ⟨S50000x256, .bf16⟩
  | .hbm, ⟨80, _⟩ => ⟨S256x128, .bf16⟩
  | .hbm, ⟨81, _⟩ => ⟨S1x128, .f32⟩
  | .hbm, ⟨82, _⟩ => ⟨S50000x128, .f32⟩
  | .hbm, ⟨83, _⟩ => ⟨S50000x40, .f32⟩
  | .local _ .vmem, ⟨0, _⟩ => ⟨S5000x128, .bf16⟩
  | .local _ .vmem, ⟨1, _⟩ => ⟨S5000x128, .bf16⟩
  | .local _ .vmem, ⟨2, _⟩ => ⟨S128x256, .bf16⟩
  | .local _ .vmem, ⟨3, _⟩ => ⟨S1x256, .f32⟩
  | .local _ .vmem, ⟨4, _⟩ => ⟨S1x256, .f32⟩
  | .local _ .vmem, ⟨5, _⟩ => ⟨S5000x256, .f32⟩
  | .local _ .vmem, ⟨6, _⟩ => ⟨S5000x256, .f32⟩
  | .local _ .vmem, ⟨7, _⟩ => ⟨S5000x256, .bf16⟩
  | .local _ .vmem, ⟨8, _⟩ => ⟨S5000x256, .bf16⟩
  | .local _ .vmem, ⟨9, _⟩ => ⟨S256x128, .bf16⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_3 : Ref sig .tc := ⟨.hbm, 59, rfl⟩
abbrev main_v40 : Ref sig .tc := ⟨.hbm, 60, rfl⟩
abbrev main_v41 : Ref sig .tc := ⟨.hbm, 61, rfl⟩
abbrev main_c_4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_6 : Ref sig .tc := ⟨.hbm, 73, rfl⟩
abbrev main_call0_v0 : Ref sig .tc := ⟨.hbm, 74, rfl⟩
abbrev main_v51 : Ref sig .tc := ⟨.hbm, 75, rfl⟩
abbrev main_c_7 : Ref sig .tc := ⟨.hbm, 76, rfl⟩
abbrev main_call1_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S256 : S_.BroadcastsInDim S256 (![] : Fin 0 → Fin S256.rank)
  bitsLt_bf16_f32 : FTy.bits .bf16 < FTy.bits .f32
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  pads_S256x40_S256x128_000_0880 : S256x40.Pads (![0, 0] : Fin 2 → Nat) ![0, 88] ![0, 0] S256x128
  h_S_ : 0 < S_.numel
  pads_S40_S128_0880 : S40.Pads (![0] : Fin 1 → Nat) ![88] ![0] S128
  shapeCasts_S128_S1x128 : S128.ShapeCasts S1x128
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S50000x128_S50000x40_0_0 : S50000x128.Slices ![0, 0] S50000x40
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x256_S5000x256_1_0_0_1_n_n_wf : DotDims.WF S5000x128 S128x256 S5000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S50000x256.size a
  hwx0_4 : ∀ i : grid0.Coords, EltTy.bits .f32 = 32 ∨ (Rect.block (s := S50000x256) S5000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .bf16 = 32 ∨ (Rect.block (s := S50000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v35) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v53) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128 : Shape := ⟨1, ![128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S1x600000 : Shape := ⟨2, ![1, 600000]⟩
abbrev S600000 : Shape := ⟨1, ![600000]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S50000x256 : Shape := ⟨2, ![50000, 256]⟩
abbrev S1x256 : Shape := ⟨2, ![1, 256]⟩
abbrev S600000x256 : Shape := ⟨2, ![600000, 256]⟩
abbrev S50000x40 : Shape := ⟨2, ![50000, 40]⟩
abbrev S1x40 : Shape := ⟨2, ![1, 40]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x40, .f32⟩
  | .hbm, ⟨13, _⟩ => ⟨S40, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S50000x128, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S256, .f32⟩
  | .hbm, ⟨58, _⟩ => ⟨S1x256, .f32⟩
  | .hbm, ⟨59, _⟩ => ⟨S50000x256, .f32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .f32⟩
  | .hbm, ⟨64, _⟩ => ⟨S_, .f32⟩
  | .hbm, ⟨65, _⟩ => ⟨S50000x256, .f32⟩
  | .hbm, ⟨66, _⟩ => ⟨S50000x256, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x256, .f32⟩
  | .hbm, ⟨76, _⟩ => ⟨S_, .f32⟩
  | .hbm, ⟨77, _⟩ => ⟨S50000x256, .f32⟩
  | .hbm, ⟨78, _⟩ => ⟨S600000x1, .i32⟩
  | .hbm, ⟨79, _⟩ => ⟨S50000x256, .f32⟩
  | .hbm, ⟨80, _⟩ => ⟨S50000x256, .f32⟩
  | .hbm, ⟨81, _⟩ => ⟨S50000x40, .f32⟩
  | .hbm, ⟨82, _⟩ => ⟨S1x40, .f32⟩
  | .hbm, ⟨83, _⟩ => ⟨S50000x40, .f32⟩
  | .hbm, ⟨84, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_2 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call0_cst : Ref sig .tc := ⟨.hbm, 64, rfl⟩
abbrev main_call0_v0 : Ref sig .tc := ⟨.hbm, 65, rfl⟩
abbrev main_v45 : Ref sig .tc := ⟨.hbm, 66, rfl⟩
abbrev main_c_3 : Ref sig .tc := ⟨.hbm, 67, rfl⟩
abbrev main_v46 : Ref sig .tc := ⟨.hbm, 68, rfl⟩
abbrev main_v47 : Ref sig .tc := ⟨.hbm, 69, rfl⟩
abbrev main_c_4 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_5 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x40_S50000x40_1_0_0_1_n_n_wf : DotDims.WF S50000x256 S256x40 S50000x40 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.KernelRun.lean ====
/-
  The idealized kernel's run with its result named.

  Every weakly fair execution of the program terminates without a fault; the argument arrays end as launched, and
  the result array ends holding what the last stretch of host operations leaves of the second region's output:
  the boundary contents `W9` read at the result buffer. The boundary contents are a fold from the launch memory
  through the host stretches and the two regions, each region's arrays at what its grid points wrote back.
-/
import proofs.«141045_j54245436949040_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Named

set_option backward.isDefEq.respectTransparency.types false in
/-- The run of the two regions among the host stretches, with the result buffer read at the last boundary's
    contents beside the unchanged arguments. -/
theorem run : θ_run defs (onTc (τ := τ) (main (F := F))) ⟨m, fun _ => 0, ρ⟩ (fun r => ∀ c : Dev nD,
      r.2.mem ((c.tc : Thread nD τ).loc main_v57) = W9 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v57 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c)⟩)

end Named

end Cert.KernelIdeal.Gen

end
-- ==== Proof.Spec.lean ====
/-
  The two dense layers of the network, each as one function of whole arrays over the extended reals.

  A layer reads a matrix of node features `a` (one row per node), a weight matrix `w` and per-column rows. Entry
  (p, q) of the product is the plain sum over the contracted coordinate k of a(p, k) · w(k, q); nothing of real
  arithmetic is used to state it, so the entries may be infinite.
-/
import Idealize.ShloMosaic.PureOps.Ideal
import Idealize.ShloMosaic.Lib.ValueIdx

noncomputable section

open scoped BigOperators

namespace Cert.Gin

open Idealize.ShloMosaic Idealize.ShloMosaic.ValueIdx

/-- Entry (p, q) of the matrix product a · w. -/
def prod {M K N : Nat} (a : (⟨2, ![M, K]⟩ : Shape).Idx → EReal) (w : (⟨2, ![K, N]⟩ : Shape).Idx → EReal)
    (p : Fin M) (q : Fin N) : EReal :=
  ∑ k : Fin K, a (ix2 p k) * w (ix2 k q)

/-- The hidden layer as the kernel computes it: the product scaled column by column, shifted column by column, and
    rectified: max((a · w)(p, q) · sc(q) + sh(q), 0). -/
def scaledRelu {M K N : Nat} (a : (⟨2, ![M, K]⟩ : Shape).Idx → EReal) (w : (⟨2, ![K, N]⟩ : Shape).Idx → EReal)
    (sc sh : (⟨2, ![1, N]⟩ : Shape).Idx → EReal) : (⟨2, ![M, N]⟩ : Shape).Idx → EReal :=
  fun i => max (prod a w (i 0) (i 1) * sc (ix2 (0 : Fin 1) (i 1)) + sh (ix2 (0 : Fin 1) (i 1))) 0

/-- The output layer as the kernel computes it: the product plus a bias row, (a · w)(p, q) + b(q). -/
def biased {M K N : Nat} (a : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => prod a w (i 0) (i 1) + b (ix2 (0 : Fin 1) (i 1))

theorem scaledRelu_apply {M K N : Nat} (a : (⟨2, ![M, K]⟩ : Shape).Idx → EReal) (w : (⟨2, ![K, N]⟩ : Shape).Idx → EReal)
    (sc sh : (⟨2, ![1, N]⟩ : Shape).Idx → EReal) (p : Fin M) (q : Fin N) :
    scaledRelu a w sc sh (ix2 p q) = max (prod a w p q * sc (ix2 (0 : Fin 1) q) + sh (ix2 (0 : Fin 1) q)) 0 := rfl

theorem biased_apply {M K N : Nat} (a : (⟨2, ![M, K]⟩ : Shape).Idx → EReal) (w : (⟨2, ![K, N]⟩ : Shape).Idx → EReal)
    (b : (⟨2, ![1, N]⟩ : Shape).Idx → EReal) (p : Fin M) (q : Fin N) :
    biased a w b (ix2 p q) = prod a w p q + b (ix2 (0 : Fin 1) q) := rfl

end Cert.Gin

end
-- ==== Proof.LibPlainMatmul.lean ====
/-
  A plain matrix product read at an entry.

  At the exact instance a `tpu.matmul` into the zero accumulator is, at each output index, the sum over the dot's
  contraction index of the products of the operands at the indices the dimension numbers name. For the plainest
  dimension numbers — an M × K matrix times a K × N matrix, one contracted axis, no batch axis — the operand indices at
  output (y, j) and contraction coordinate k are (y, k) and (k, j), and the contraction index is its one coordinate; so
  the entry is the familiar `Σₖ a[y, k] · w[k, j]` over `Fin K`. The four coordinate facts are taken as hypotheses:
  for a concrete record each is one line (two by the record's own single-axis lemmas, two by unfolding the index
  function at a decided membership).
-/
import Idealize.ShloMosaic.PureOps.Ideal.Laws
import Idealize.ShloMosaic.Lib.ValueIdx

noncomputable section

namespace Cert.EdgeScore.Lib

open Idealize.ShloMosaic Idealize.ShloMosaic.ValueIdx

/-- Entry (y, j) of an M × K by K × N product accumulated into zero is `Σₖ a (y, k) · w (k, j)`, `k` over `Fin K`:
    the contraction index re-read as its one coordinate (`hr`, `hs`: one contracted axis of extent K), the operand
    indices by their coordinates (`hl0`, `hl1`, `hr0`, `hr1`). Nothing of real arithmetic is used, so it holds
    with infinite entries too. -/
theorem matmul_zero_ix2_apply {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (a : FVec Ideal ⟨2, ![M, K]⟩ φ₁) (w : FVec Ideal ⟨2, ![K, N]⟩ φ₂)
    (y : Fin M) (j : Fin N) :
    FloatOps.matmul d prec a w (constant ⟨2, ![M, N]⟩ .f32 0x00000000#32) (ix2 y j)
      = ∑ k : Fin K, a (ix2 y k) * w (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

end Cert.EdgeScore.Lib

end
-- ==== Proof.RegionHidden.lean ====
/-
  The hidden layer's region, read as one function of the arrays it was entered with.

  The region runs ten grid points. Point t stages rows 5000·t … 5000·t + 4999 of the feature matrix (50000 × 128), the
  whole weight matrix (128 × 256) and the two whole per-column rows (1 × 256); its body multiplies the staged rows into
  the weights with a zero accumulator, scales each column, shifts each column, rectifies, and stores the 5000 × 256 block,
  which is written back as rows 5000·t … 5000·t + 4999 of the result (50000 × 256). Entry (r, q) of the result is therefore
  max((Σₖ a(r, k) · w(k, q)) · sc(q) + sh(q), 0), whichever point wrote it: the row blocks tile the result and each
  block's entries read the feature rows at the same offset.
-/
import proofs.«141045_j54245436949040_1_alg».proof.Proof.Gen.KernelIdeal.Frame
import proofs.«141045_j54245436949040_1_alg».proof.Proof.Spec
import proofs.«141045_j54245436949040_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hidden

open Cert.KernelIdeal Cert.KernelIdeal.Gen Idealize.ShloMosaic Idealize.ShloMosaic.ValueIdx Idealize.ShloMosaic.TcCoe
open Idealize.SL.Sem
open Idealize.ShloMosaic.Pipeline (Dat)

/-! ## The body's arithmetic at an entry -/

/-- The product's dimension numbers: the left operand is read at (row of the output, contracted coordinate), -/
theorem lhs_row (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_contr (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
/-- and the right operand at (contracted coordinate, column of the output). -/
theorem rhs_contr (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_col (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Entry (p, q) of the block the body stores, from the four staged blocks: the row of the product at (p, q), scaled
    and shifted by column q's entries of the two rows, rectified. -/
theorem pay_apply (x0 : Vec Ideal S5000x128 .bf16) (x1 : Vec Ideal S128x256 .bf16) (x2 x3 : Vec Ideal S1x256 .f32)
    (p : Fin 5000) (q : Fin 256) :
    k0_pay1 x0 x1 x2 x3 (ix2 p q)
      = max ((∑ k : Fin 128, x0 (ix2 p k) * x1 (ix2 k q)) * x2 (ix2 (0 : Fin 1) q) + x3 (ix2 (0 : Fin 1) q)) 0 := by
  have hm := Cert.EdgeScore.Lib.matmul_zero_ix2_apply (φ₁ := .bf16) (φ₂ := .bf16) dot_S5000x128_S128x256_S5000x256_1_0_0_1_n_n rfl rfl
    lhs_row lhs_contr rhs_contr rhs_col none x0 x1 p q
  have h2 := broadcastTo_1b_ab_apply x2 broadcasts_S1x256_S5000x256 p q
  have h3 := broadcastTo_1b_ab_apply x3 broadcasts_S1x256_S5000x256 p q
  unfold k0_pay1
  simp only [shapeCast_self]
  refine (maximumf_apply _ _ _).trans ?_
  refine congrArg₂ max ?_ Ideal.ofBits_zero_f32
  refine (addf_apply _ _ _).trans ?_
  refine congrArg₂ (· + ·) ?_ h3
  refine (mulf_apply _ _ _).trans ?_
  exact congrArg₂ (· * ·) hm h2

/-! ## The windows' index maps over the grid -/

theorem hz : (![0, 0] : Fin 2 → Nat) = fun _ => 0 := funext fun a => by fin_cases a <;> rfl

/-- At point t the feature window and the result window are at row block t, column block 0; the weights and the two rows
    are whole, at block (0, 0). Decided over the ten points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-! ## The staged blocks, read off the arrays -/

/-- The feature block at point t is rows 5000·t … of the feature matrix. -/
theorem feat_block (c : Dev nD) (t : Fin cfg0.N) (y : S5000x128.Idx) (i : S50000x128.Idx)
    (h0 : (i 0).val = 5000 * t.val + (y 0).val) (h1 : (i 1).val = (y 1).val) :
    (iblk0 (F := Ideal) V c 0 t : Vec Ideal S5000x128 .bf16) y = (V c main_v35 : S50000x128.Idx → EReal) i := by
  obtain ⟨e0, e1, -⟩ := idx_facts t
  unfold iblk0
  rw [View.read_apply]
  show V c main_v35 (((cfg0.win 0).blk t).view.emb y) = V c main_v35 i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The weight window is whole: its block at every point is the weight matrix. -/
theorem weight_block (c : Dev nD) (t : Fin cfg0.N) (y : S128x256.Idx) :
    (iblk0 (F := Ideal) V c 1 t : Vec Ideal S128x256 .bf16) y = (V c main_v36 : S128x256.Idx → EReal) y := by
  obtain ⟨-, -, e0, e1, -⟩ := idx_facts t
  unfold iblk0
  rw [View.read_apply]
  show V c main_v36 (((cfg0.win 1).blk t).view.emb y) = V c main_v36 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- So is the window of the column scales, -/
theorem scale_block (c : Dev nD) (t : Fin cfg0.N) (y : S1x256.Idx) :
    (iblk0 (F := Ideal) V c 2 t : Vec Ideal S1x256 .f32) y = (V c main_v37 : S1x256.Idx → EReal) y := by
  obtain ⟨-, -, -, -, e0, e1, -⟩ := idx_facts t
  unfold iblk0
  rw [View.read_apply]
  show V c main_v37 (((cfg0.win 2).blk t).view.emb y) = V c main_v37 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- and the window of the column shifts. -/
theorem shift_block (c : Dev nD) (t : Fin cfg0.N) (y : S1x256.Idx) :
    (iblk0 (F := Ideal) V c 3 t : Vec Ideal S1x256 .f32) y = (V c main_v38 : S1x256.Idx → EReal) y := by
  obtain ⟨-, -, -, -, -, -, e0, e1, -⟩ := idx_facts t
  unfold iblk0
  rw [View.read_apply]
  show V c main_v38 (((cfg0.win 3).blk t).view.emb y) = V c main_v38 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-! ## What a point writes back -/

/-- Point t writes back block t of the layer's function of the arrays the region was entered with. -/
theorem flushed_eq (c : Dev nD) (t : Fin cfg0.N) :
    (dat0 (F := Ideal) V c).flushed 4 t = ((cfg0.win 4).blk t).view.read (Elt Ideal)
      (Cert.Gin.scaledRelu (V c main_v35) (V c main_v36) (V c main_v37) (V c main_v38)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x256) hz, View.ld_unit_zero (S := S1x256) hz]
  obtain ⟨-, -, -, -, -, -, -, -, e0, e1⟩ := idx_facts t
  have ht : t.val < 10 := lt_of_lt_of_eq t.isLt N_0
  funext j
  obtain ⟨p, q, rfl⟩ : ∃ (p : Fin 5000) (q : Fin 256), j = ix2 p q := ⟨j 0, j 1, eq_ix2 j⟩
  have hp : p.val < 5000 := p.isLt
  have hemb : ((cfg0.win 4).blk t).view.emb (ix2 p q) = ix2 (⟨5000 * t.val + p.val, by omega⟩ : Fin 50000) q :=
    funext fun a => Fin.ext (by
      match a with
      | ⟨0, _⟩ => show win0_4.index t (0 : Fin 2) * 5000 + 1 * p.val = 5000 * t.val + p.val; omega
      | ⟨1, _⟩ => show win0_4.index t (1 : Fin 2) * 256 + 1 * q.val = q.val; omega)
  show k0_pay1 (iblk0 V c 0 t) (iblk0 V c 1 t) (iblk0 V c 2 t) (iblk0 V c 3 t) (ix2 p q)
    = Cert.Gin.scaledRelu (V c main_v35) (V c main_v36) (V c main_v37) (V c main_v38) (((cfg0.win 4).blk t).view.emb (ix2 p q))
  rw [hemb, Cert.Gin.scaledRelu_apply]
  refine (pay_apply (iblk0 V c 0 t) (iblk0 V c 1 t) (iblk0 V c 2 t) (iblk0 V c 3 t) p q).trans ?_
  unfold Cert.Gin.prod
  refine congrArg₂ max (congrArg₂ (· + ·) (congrArg₂ (· * ·) (Finset.sum_congr rfl fun k _ => ?_) (scale_block V c t _)) (shift_block V c t _)) rfl
  exact congrArg₂ (· * ·) (feat_block V c t (ix2 p k) (ix2 (⟨5000 * t.val + p.val, by omega⟩ : Fin 50000) k) rfl rfl) (weight_block V c t (ix2 k q))

/-! ## The row blocks tile the result -/

/-- An index of the result is in point t's block iff each coordinate is in the block's range on its axis. -/
theorem mem_blk (t : Fin cfg0.N) (i : S50000x256.Idx) :
    i ∈ ((cfg0.win 4).blk t).view.set ↔ ∀ a : Fin 2, win0_4.index t a * S5000x256.size a ≤ (i a).val ∧ (i a).val < win0_4.index t a * S5000x256.size a + S5000x256.size a := by
  show i ∈ ((View.whole main_v39).slice (win0_4.rect t)).set ↔ _
  rw [View.set_slice_whole, Rect.mem_set_unit]
  exact Iff.rfl

/-- Row r of the result lies in the block of point r / 5000, which writes back like every point. -/
theorem cover (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  have hN : cfg0.N = 10 := N_0
  refine ⟨⟨(i 0).val / 5000, by rw [hN]; omega⟩, flush0_4 _, ?_⟩
  rw [mem_blk]
  obtain ⟨-, -, -, -, -, -, -, -, e0, e1⟩ := idx_facts ⟨(i 0).val / 5000, by rw [hN]; omega⟩
  intro a
  match a with
  | ⟨0, _⟩ =>
    show win0_4.index _ (0 : Fin 2) * 5000 ≤ (i 0).val ∧ (i 0).val < win0_4.index _ (0 : Fin 2) * 5000 + 5000
    rw [e0]
    show (i 0).val / 5000 * 5000 ≤ (i 0).val ∧ (i 0).val < (i 0).val / 5000 * 5000 + 5000
    omega
  | ⟨1, _⟩ =>
    show win0_4.index _ (1 : Fin 2) * 256 ≤ (i 1).val ∧ (i 1).val < win0_4.index _ (1 : Fin 2) * 256 + 256
    rw [e1]
    omega

/-! ## The region's result -/

/-- The result array after the region's ten write-backs is the hidden layer of the arrays the region was entered with. -/
theorem final (c : Dev nD) :
    (Gen.dat0 (F := Ideal) V c).arrAt 4 cfg0.N
      = Cert.Gin.scaledRelu (V c main_v35) (V c main_v36) (V c main_v37) (V c main_v38) :=
  (dat0 (F := Ideal) V c).arrAt_eq_of_cover 4 _ (fun t _ => flushed_eq V c t) cover

end Cert.KernelIdeal.Hidden

end
-- ==== Proof.RegionOutput.lean ====
/-
  The output layer's region, read as one function of the arrays it was entered with.

  The region runs ten grid points. Point t stages rows 5000·t … 5000·t + 4999 of the hidden features (50000 × 256), the
  whole weight matrix (256 × 128) and the whole bias row (1 × 128); its body multiplies the staged rows into the weights
  with a zero accumulator, adds the bias row to every row, and stores the 5000 × 128 block, which is written back as
  rows 5000·t … 5000·t + 4999 of the result (50000 × 128). Entry (r, q) of the result is therefore
  (Σₖ a(r, k) · w(k, q)) + b(q), whichever point wrote it: the row blocks tile the result and each block's entries read
  the feature rows at the same offset.
-/
import proofs.«141045_j54245436949040_1_alg».proof.Proof.Gen.KernelIdeal.Frame
import proofs.«141045_j54245436949040_1_alg».proof.Proof.Spec
import proofs.«141045_j54245436949040_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Output

open Cert.KernelIdeal Cert.KernelIdeal.Gen Idealize.ShloMosaic Idealize.ShloMosaic.ValueIdx Idealize.ShloMosaic.TcCoe
open Idealize.SL.Sem
open Idealize.ShloMosaic.Pipeline (Dat)

/-! ## The body's arithmetic at an entry -/

/-- The product's dimension numbers: the left operand is read at (row of the output, contracted coordinate), -/
theorem lhs_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_contr (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- and the right operand at (contracted coordinate, column of the output). -/
theorem rhs_contr (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry (p, q) of the block the body stores, from the three staged blocks: the product at (p, q) plus column q's
    entry of the bias row. -/
theorem pay_apply (x0 : Vec Ideal S5000x256 .bf16) (x1 : Vec Ideal S256x128 .bf16) (x2 : Vec Ideal S1x128 .f32)
    (p : Fin 5000) (q : Fin 128) :
    k1_pay1 x0 x1 x2 (ix2 p q) = (∑ k : Fin 256, x0 (ix2 p k) * x1 (ix2 k q)) + x2 (ix2 (0 : Fin 1) q) := by
  have hm := Cert.EdgeScore.Lib.matmul_zero_ix2_apply (φ₁ := .bf16) (φ₂ := .bf16) dot_S5000x256_S256x128_S5000x128_1_0_0_1_n_n rfl rfl
    lhs_row lhs_contr rhs_contr rhs_col none x0 x1 p q
  have h2 := broadcastTo_1b_ab_apply x2 broadcasts_S1x128_S5000x128 p q
  unfold k1_pay1
  simp only [shapeCast_self]
  refine (addf_apply _ _ _).trans ?_
  exact congrArg₂ (· + ·) hm h2

/-! ## The windows' index maps over the grid -/

theorem hz : (![0, 0] : Fin 2 → Nat) = fun _ => 0 := funext fun a => by fin_cases a <;> rfl

/-- At point t the feature window and the result window are at row block t, column block 0; the weights and the bias row
    are whole, at block (0, 0). Decided over the ten points. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-! ## The staged blocks, read off the arrays -/

/-- The feature block at point t is rows 5000·t … of the feature matrix. -/
theorem feat_block (c : Dev nD) (t : Fin cfg1.N) (y : S5000x256.Idx) (i : S50000x256.Idx)
    (h0 : (i 0).val = 5000 * t.val + (y 0).val) (h1 : (i 1).val = (y 1).val) :
    (iblk1 (F := Ideal) V c 0 t : Vec Ideal S5000x256 .bf16) y = (V c main_v53 : S50000x256.Idx → EReal) i := by
  obtain ⟨e0, e1, -⟩ := idx_facts t
  unfold iblk1
  rw [View.read_apply]
  show V c main_v53 (((cfg1.win 0).blk t).view.emb y) = V c main_v53 i
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 256 + 1 * (y 1).val = (i 1).val; omega

/-- The weight window is whole: its block at every point is the weight matrix. -/
theorem weight_block (c : Dev nD) (t : Fin cfg1.N) (y : S256x128.Idx) :
    (iblk1 (F := Ideal) V c 1 t : Vec Ideal S256x128 .bf16) y = (V c main_v54 : S256x128.Idx → EReal) y := by
  obtain ⟨-, -, e0, e1, -⟩ := idx_facts t
  unfold iblk1
  rw [View.read_apply]
  show V c main_v54 (((cfg1.win 1).blk t).view.emb y) = V c main_v54 y
  refine congrArg _ (funext fun a => Fin.ext ?_)
  match a with
  | ⟨0, _⟩ => show win1_1.index t (0 : Fin 2) * 256 + 1 * (y 0).val = (y 0).val; omega
  | ⟨1, _⟩ => show win1_1.index t (1 : Fin 2) * 128 + 1 * (y 1).val = (y 1).val; omega

/-- So is the window of the bias row. -/
theorem bias_block (c : Dev nD) (t : Fin cfg1.N) (y : S1x128.Idx) :
    (iblk1 (F := Ideal) V c 2 t : Vec Ideal S1x128 .f32) y = (V c main_v55 : S1x128.Idx → EReal) y := by
  obtain ⟨-, -, -, -, e0, e1, -⟩ := idx_facts t
  unfold iblk1
  rw [View.read_apply]
  show V c main_v55 (((cfg1.win 2).blk t).view.emb y) = V c main_v55 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-! ## What a point writes back -/

/-- Point t writes back block t of the layer's function of the arrays the region was entered with. -/
theorem flushed_eq (c : Dev nD) (t : Fin cfg1.N) :
    (dat1 (F := Ideal) V c).flushed 3 t = ((cfg1.win 3).blk t).view.read (Elt Ideal)
      (Cert.Gin.biased (V c main_v53) (V c main_v54) (V c main_v55)) := by
  show (cfg1.win 3).cut (grid1.coords t) ((dat1 V c).after 3 t) = _
  rw [after1_3]
  unfold out1_3
  rw [View.canon_unit_zero hz]
  simp only [View.ld_unit_zero (S := S5000x256) hz, View.ld_unit_zero (S := S256x128) hz, View.ld_unit_zero (S := S1x128) hz]
  obtain ⟨-, -, -, -, -, -, e0, e1⟩ := idx_facts t
  have ht : t.val < 10 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hemb : ((cfg1.win 3).blk t).view.emb (ix2 p q) = ix2 (⟨5000 * t.val + p.val, by omega⟩ : Fin 50000) q :=
    funext fun a => Fin.ext (by
      match a with
      | ⟨0, _⟩ => show win1_3.index t (0 : Fin 2) * 5000 + 1 * p.val = 5000 * t.val + p.val; omega
      | ⟨1, _⟩ => show win1_3.index t (1 : Fin 2) * 128 + 1 * q.val = q.val; omega)
  show k1_pay1 (iblk1 V c 0 t) (iblk1 V c 1 t) (iblk1 V c 2 t) (ix2 p q)
    = Cert.Gin.biased (V c main_v53) (V c main_v54) (V c main_v55) (((cfg1.win 3).blk t).view.emb (ix2 p q))
  rw [hemb, Cert.Gin.biased_apply]
  refine (pay_apply (iblk1 V c 0 t) (iblk1 V c 1 t) (iblk1 V c 2 t) p q).trans ?_
  unfold Cert.Gin.prod
  refine congrArg₂ (· + ·) (Finset.sum_congr rfl fun k _ => ?_) (bias_block V c t _)
  exact congrArg₂ (· * ·) (feat_block V c t (ix2 p k) (ix2 (⟨5000 * t.val + p.val, by omega⟩ : Fin 50000) k) rfl rfl) (weight_block V c t (ix2 k q))

/-! ## The row blocks tile the result -/

/-- An index of the result is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v56).slice (win1_3.rect t)).set ↔ _
  rw [View.set_slice_whole, Rect.mem_set_unit]
  exact Iff.rfl

/-- Row r of the result lies in the block of point r / 5000, which writes back like every point. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_3 _, ?_⟩
  rw [mem_blk]
  obtain ⟨-, -, -, -, -, -, e0, e1⟩ := idx_facts ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e0]
    show (i 0).val / 5000 * 5000 ≤ (i 0).val ∧ (i 0).val < (i 0).val / 5000 * 5000 + 5000
    omega
  | ⟨1, _⟩ =>
    show win1_3.index _ (1 : Fin 2) * 128 ≤ (i 1).val ∧ (i 1).val < win1_3.index _ (1 : Fin 2) * 128 + 128
    rw [e1]
    omega

/-! ## The region's result -/

/-- The result array after the region's ten write-backs is the output layer of the arrays the region was entered with. -/
theorem final (c : Dev nD) :
    (Gen.dat1 (F := Ideal) V c).arrAt 3 cfg1.N
      = Cert.Gin.biased (V c main_v53) (V c main_v54) (V c main_v55) :=
  (dat1 (F := Ideal) V c).arrAt_eq_of_cover 3 _ (fun t _ => flushed_eq V c t) cover

end Cert.KernelIdeal.Output

end
-- ==== Proof.LibFlatRow.lean ====
/-
  A flat array recast as a one-row matrix, read at an entry.

  Recasting `[k]` as `[1, k]` keeps the row-major order, so entry `(0, j)` of the row is entry `j` of the flat array.
-/
import Idealize.ShloMosaic.Lib.ValueIdx
import Idealize.ShloMosaic.Lib.Pipeline.Value

noncomputable section

namespace Cert.FlatRow

open Idealize.ShloMosaic Idealize.ShloMosaic.ValueIdx

/-- A flat array `[k]` recast as a row `[1, k]` reads, at `(0, j)`, the array at `j`. -/
theorem cast_flat_row_apply {α : Type} {k : Nat} (x : (⟨1, ![k]⟩ : Shape).Idx → α)
    (h : (⟨1, ![k]⟩ : Shape).ShapeCasts ⟨2, ![1, k]⟩) (j : Fin k) :
    shapeCast ⟨2, ![1, k]⟩ x h (ix2 (0 : Fin 1) j) = x (ix1 j) :=
  shapeCast_apply x h _ _ (by
    rw [Shape.rowMajor_val_two, Shape.rowMajor_val_one]
    show j.val = 0 * k + j.val
    omega)

end Cert.FlatRow

end
-- ==== Proof.KernelValue.lean ====
/-
  The idealized kernel's result as one term of the argument arrays.

  The boundary contents of the run are read back one stretch at a time: the first stretch of host operations leaves
  the first region its four operands (the aggregated, normalised features, the first weight matrix, and the folded
  scale and shift rows); the region leaves the hidden layer; the second stretch aggregates the hidden layer over the
  edges and pads the second weight matrix and bias to 128 columns; the second region leaves the padded logits; and
  the last stretch keeps their first 40 columns. The host operations the two programs share (the first
  normalisation, both neighbour aggregations) are carried as the reference's own stage functions, unopened.
-/
import proofs.«141045_j54245436949040_1_alg».proof.Proof.Gen.KernelIdeal.Frame
import proofs.«141045_j54245436949040_1_alg».proof.Proof.Gen.ReferenceIdeal.Read
import proofs.«141045_j54245436949040_1_alg».proof.Proof.RegionHidden
import proofs.«141045_j54245436949040_1_alg».proof.Proof.RegionOutput
import proofs.«141045_j54245436949040_1_alg».proof.Proof.Spec
import proofs.«141045_j54245436949040_1_alg».proof.Proof.LibFlatRow
import Idealize.ShloMosaic.Lib.StableHlo.Run
import Idealize.ShloMosaic.Lib.KernelVsHost
import Idealize.ShloMosaic.PureOps.Ideal

set_option maxRecDepth 16384

noncomputable section

namespace Cert.KernelIdeal.Result

open Cert.KernelIdeal Cert.KernelIdeal.Gen
open Idealize.ShloMosaic Idealize.ShloMosaic.TcCoe Idealize.ShloMosaic.Tactic Idealize.SL.Sem Idealize.ShloMosaic.StableHlo
open Cert.ReferenceIdeal.Read (val_main_v27 val_main_v1 val_main_v3 val_main_v51 val_main_v53 val_main_v54)

variable (m : (ℓ : Loc nD τ sig) → Buf (Elt Ideal) ℓ) (ρ : Dev nD → PrngReg)

/-- The aggregated first-layer features, as the reference's stage of the six arguments it reads. -/
abbrev agg1 (c : Dev nD) : FVec Ideal S50000x128 .f32 :=
  val_main_v27 (F := Ideal) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-- The folded scale γ · (v + ε)^(-1/2), one entry per hidden column. -/
def scale (c : Dev nD) : FVec Ideal S256 .f32 :=
  mulf (m ((c.tc : Thread nD τ).loc main_arg8))
    (Host.rsqrt (addf (m ((c.tc : Thread nD τ).loc main_arg11))
      (broadcastInDim S256 ![] bcast_S_S256 (constant (F := Ideal) S_ .f32 0x3727C5AC#32))))

/-- The folded shift (b − μ) · scale + β. -/
def shift (c : Dev nD) : FVec Ideal S256 .f32 :=
  addf (mulf (subf (m ((c.tc : Thread nD τ).loc main_arg7)) (m ((c.tc : Thread nD τ).loc main_arg10))) (scale m c))
    (m ((c.tc : Thread nD τ).loc main_arg9))

set_option maxHeartbeats 8000000 in
theorem entry_features (c : Dev nD) : (V1 (F := Ideal) m ρ c main_v35 : FVec Ideal S50000x128 .bf16)
    = truncf (F := Ideal) (s := S50000x128) .bf16 (agg1 m c) bitsLt_bf16_f32 := by
  show StableHlo.after hostOps0 (W0 m ρ c) (Proc.devRef .tc main_v35) = _
  after_results_simp
  rfl

set_option maxHeartbeats 8000000 in
theorem entry_weights (c : Dev nD) : (V1 (F := Ideal) m ρ c main_v36 : FVec Ideal S128x256 .bf16)
    = truncf (F := Ideal) (s := S128x256) .bf16 (m ((c.tc : Thread nD τ).loc main_arg6)) bitsLt_bf16_f32 := by
  show StableHlo.after hostOps0 (W0 m ρ c) (Proc.devRef .tc main_v36) = _
  after_results_simp <;> rfl

set_option maxHeartbeats 8000000 in
theorem entry_scale (c : Dev nD) : (V1 (F := Ideal) m ρ c main_v37 : FVec Ideal S1x256 .f32)
    = shapeCast S1x256 (scale m c) shapeCasts_S256_S1x256 := by
  show StableHlo.after hostOps0 (W0 m ρ c) (Proc.devRef .tc main_v37) = _
  after_results_simp
  rfl

set_option maxHeartbeats 8000000 in
theorem entry_shift (c : Dev nD) : (V1 (F := Ideal) m ρ c main_v38 : FVec Ideal S1x256 .f32)
    = shapeCast S1x256 (shift m c) shapeCasts_S256_S1x256 := by
  show StableHlo.after hostOps0 (W0 m ρ c) (Proc.devRef .tc main_v38) = _
  after_results_simp
  rfl

/-- The hidden layer as the kernel leaves it. -/
def hidden (c : Dev nD) : FVec Ideal S50000x256 .f32 :=
  Cert.Gin.scaledRelu (truncf (F := Ideal) (s := S50000x128) .bf16 (agg1 m c) bitsLt_bf16_f32)
    (truncf (F := Ideal) (s := S128x256) .bf16 (m ((c.tc : Thread nD τ).loc main_arg6)) bitsLt_bf16_f32)
    (shapeCast S1x256 (scale m c) shapeCasts_S256_S1x256) (shapeCast S1x256 (shift m c) shapeCasts_S256_S1x256)

theorem hidden_eq (c : Dev nD) : (W2 (F := Ideal) m ρ c (Proc.devRef .tc main_v39) : FVec Ideal S50000x256 .f32) = hidden m c := by
  refine (W2_arr m ρ c 4).trans ?_
  rw [Cert.KernelIdeal.Hidden.final (V1 m ρ) c, entry_features, entry_weights, entry_scale, entry_shift]
  rfl

/-! ## Between the regions and after the second -/

/-- The neighbour aggregation of a hidden layer `H` over the edge list `x1`: `H` plus, at each node, the sum of the
    rows of `H` gathered at the sources of the edges that land on it (the reference's own records and index columns). -/
def agg2 (H : FVec Ideal S50000x256 .f32) (x1 : IVec S2x600000 32) : FVec Ideal S50000x256 .f32 :=
  addf H (Host.scatterAdd Cert.ReferenceIdeal.scatter_S50000x256_S600000x1_S600000x256_1_0_0_1 (val_main_v53 (F := Ideal))
    (val_main_v54 (F := Ideal) x1)
    (Host.gather Cert.ReferenceIdeal.gather_S50000x256_S600000x1_S600000x256_1_0_n_n_0_1_1256 H (val_main_v51 (F := Ideal) x1)))

set_option maxHeartbeats 8000000 in
theorem edge_sources (c : Dev nD) : (W1 (F := Ideal) m ρ c (Proc.devRef .tc main_v1) : IVec S600000 32)
    = val_main_v1 (F := Ideal) (m ((c.tc : Thread nD τ).loc main_arg1)) := by
  show StableHlo.after hostOps0 (W0 m ρ c) (Proc.devRef .tc main_v1) = _
  after_results_simp <;> rfl

set_option maxHeartbeats 8000000 in
theorem edge_targets (c : Dev nD) : (W1 (F := Ideal) m ρ c (Proc.devRef .tc main_v3) : IVec S600000 32)
    = val_main_v3 (F := Ideal) (m ((c.tc : Thread nD τ).loc main_arg1)) := by
  show StableHlo.after hostOps0 (W0 m ρ c) (Proc.devRef .tc main_v3) = _
  after_results_simp <;> rfl

set_option maxHeartbeats 8000000 in
theorem entry2_features (c : Dev nD) : (V7 (F := Ideal) m ρ c main_v53 : FVec Ideal S50000x256 .bf16)
    = truncf (F := Ideal) (s := S50000x256) .bf16 (agg2 (hidden m c) (m ((c.tc : Thread nD τ).loc main_arg1))) bitsLt_bf16_f32 := by
  show StableHlo.after hostOps1_4 (StableHlo.after hostOps1_3 (StableHlo.after hostOps1_2 (StableHlo.after hostOps1_1
    (StableHlo.after hostOps1 (W2 m ρ c))))) (Proc.devRef .tc main_v53) = _
  after_results_simp
  rw [hidden_eq, W2_of_ne m ρ c main_v1 (by decide), W2_of_ne m ρ c main_v3 (by decide), edge_sources, edge_targets]
  rfl

set_option maxHeartbeats 8000000 in
theorem kept_weights2 (c : Dev nD) : (W2 (F := Ideal) m ρ c (Proc.devRef .tc main_arg12) : FVec Ideal S256x40 .f32)
    = m ((c.tc : Thread nD τ).loc main_arg12) :=
  (W2_of_ne m ρ c main_arg12 (by decide)).trans (by
    show StableHlo.after hostOps0 (W0 m ρ c) (Proc.devRef .tc main_arg12) = _
    after_results_simp <;> rfl)

set_option maxHeartbeats 8000000 in
theorem kept_bias2 (c : Dev nD) : (W2 (F := Ideal) m ρ c (Proc.devRef .tc main_arg13) : FVec Ideal S40 .f32)
    = m ((c.tc : Thread nD τ).loc main_arg13) :=
  (W2_of_ne m ρ c main_arg13 (by decide)).trans (by
    show StableHlo.after hostOps0 (W0 m ρ c) (Proc.devRef .tc main_arg13) = _
    after_results_simp <;> rfl)

set_option maxHeartbeats 8000000 in
/-- The padded second weight matrix, inside its first 40 columns, is the second weight matrix. -/
theorem entry2_weights_apply (c : Dev nD) (k : Fin 256) (q : Fin 40) :
    (V7 (F := Ideal) m ρ c main_v54 : FVec Ideal S256x128 .bf16) (ValueIdx.ix2 k (⟨q.val, by omega⟩ : Fin 128))
      = m ((c.tc : Thread nD τ).loc main_arg12) (ValueIdx.ix2 k q) := by
  show StableHlo.after hostOps1_4 (StableHlo.after hostOps1_3 (StableHlo.after hostOps1_2 (StableHlo.after hostOps1_1
    (StableHlo.after hostOps1 (W2 m ρ c))))) (Proc.devRef .tc main_v54) _ = _
  after_results_simp
  rw [kept_weights2]
  exact pad_apply_of_inside (s := S256x40) ![0, 0] ![0, 88] ![0, 0] _ _ pads_S256x40_S256x128_000_0880 h_S_
    (ValueIdx.ix2 k (⟨q.val, by omega⟩ : Fin 128)) (ValueIdx.ix2 k q) (fun a => by
      match a with
      | ⟨0, _⟩ => show k.val = 0 + k.val * (0 + 1); omega
      | ⟨1, _⟩ => show q.val = 0 + q.val * (0 + 1); omega)

set_option maxHeartbeats 8000000 in
/-- The padded second bias, recast as a row, inside its first 40 entries is the second bias. -/
theorem entry2_bias_apply (c : Dev nD) (q : Fin 40) :
    (V7 (F := Ideal) m ρ c main_v55 : FVec Ideal S1x128 .f32) (ValueIdx.ix2 (0 : Fin 1) (⟨q.val, by omega⟩ : Fin 128))
      = m ((c.tc : Thread nD τ).loc main_arg13) (ValueIdx.ix1 q) := by
  show StableHlo.after hostOps1_4 (StableHlo.after hostOps1_3 (StableHlo.after hostOps1_2 (StableHlo.after hostOps1_1
    (StableHlo.after hostOps1 (W2 m ρ c))))) (Proc.devRef .tc main_v55) _ = _
  after_results_simp
  rw [kept_bias2]
  refine (Cert.FlatRow.cast_flat_row_apply (k := 128) _ shapeCasts_S128_S1x128 (⟨q.val, by omega⟩ : Fin 128)).trans ?_
  exact pad_apply_of_inside (s := S40) ![0] ![88] ![0] _ _ pads_S40_S128_0880 h_S_
    (ValueIdx.ix1 (⟨q.val, by omega⟩ : Fin 128)) (ValueIdx.ix1 q) (fun a => by
      match a with
      | ⟨0, _⟩ => show q.val = 0 + q.val * (0 + 1); omega)

set_option maxHeartbeats 8000000 in
/-- The result buffer at the end of the run: the first 40 columns of the second region's output. -/
theorem result_eq (c : Dev nD) : (W9 (F := Ideal) m ρ c (Proc.devRef .tc main_v57) : FVec Ideal S50000x40 .f32)
    = extractStridedSlice S50000x40 ![0, 0]
        (Cert.Gin.biased (V7 (F := Ideal) m ρ c main_v53 : FVec Ideal S50000x256 .bf16)
          (V7 (F := Ideal) m ρ c main_v54 : FVec Ideal S256x128 .bf16) (V7 (F := Ideal) m ρ c main_v55 : FVec Ideal S1x128 .f32))
        slices_S50000x128_S50000x40_0_0 := by
  show StableHlo.after hostOps2 (W8 m ρ c) (Proc.devRef .tc main_v57) = _
  after_results_simp
  rw [show (W8 (F := Ideal) m ρ c (Proc.devRef .tc main_v56)) = _ from W8_arr m ρ c 3, Cert.KernelIdeal.Output.final (V7 m ρ) c]

end Cert.KernelIdeal.Result

end
-- ==== Proof.RefEntry.lean ====
/-
  The reference's stages read at an entry, over the extended reals.

  The hidden layer of the reference at (p, q): the product of the aggregated features with the first weight
  matrix, plus the bias, minus the running mean, times γ / √(v + ε), plus β, rectified. Its result at (p, q): the
  product of the aggregated hidden layer with the second weight matrix plus the second bias. The two neighbour
  aggregations stay the unopened stage functions.
-/
import proofs.«141045_j54245436949040_1_alg».proof.Proof.Gen.ReferenceIdeal.Read
import Idealize.ShloMosaic.PureOps.Ideal.Laws
import Idealize.ShloMosaic.Lib.ValueIdx

set_option maxRecDepth 16384

noncomputable section

open scoped BigOperators

namespace Cert.ReferenceIdeal.Entry

open Cert.ReferenceIdeal Cert.ReferenceIdeal.Gen Cert.ReferenceIdeal.Read
open Idealize.ShloMosaic Idealize.ShloMosaic.ValueIdx

variable (x0 : FVec Ideal S50000x128 .f32) (x1 : IVec S2x600000 32) (x2 x3 x4 x5 : FVec Ideal S128 .f32)
  (x6 : FVec Ideal S128x256 .f32) (x7 x8 x9 x10 x11 : FVec Ideal S256 .f32) (x12 : FVec Ideal S256x40 .f32)
  (x13 : FVec Ideal S40 .f32)

/-! The stages' index functions at an index given by its coordinates. -/

theorem lidx28 (p : Fin 50000) (q : Fin 256) (k : Fin 128) : lidx_main_v28 (ix2 p q) k = ix2 p k :=
  funext fun a => Fin.ext (by match a with | ⟨0, _⟩ => rfl | ⟨1, _⟩ => rfl)
theorem ridx28 (p : Fin 50000) (q : Fin 256) (k : Fin 128) : ridx_main_v28 (ix2 p q) k = ix2 k q :=
  funext fun a => Fin.ext (by match a with | ⟨0, _⟩ => rfl | ⟨1, _⟩ => rfl)
theorem idx29 (p : Fin 50000) (q : Fin 256) : idx_main_v29 (idx_main_v30 (ix2 p q)) = ix1 q :=
  funext fun a => Fin.ext (by match a with | ⟨0, _⟩ => rfl)
theorem idx32 (p : Fin 50000) (q : Fin 256) : idx_main_v32 (idx_main_v33 (ix2 p q)) = ix1 q :=
  funext fun a => Fin.ext (by match a with | ⟨0, _⟩ => rfl)
theorem idx39 (p : Fin 50000) (q : Fin 256) : idx_main_v39 (idx_main_v40 (ix2 p q)) = ix1 q :=
  funext fun a => Fin.ext (by match a with | ⟨0, _⟩ => rfl)
theorem idx42 (p : Fin 50000) (q : Fin 256) : idx_main_v42 (idx_main_v43 (ix2 p q)) = ix1 q :=
  funext fun a => Fin.ext (by match a with | ⟨0, _⟩ => rfl)
theorem lidx57 (p : Fin 50000) (q : Fin 40) (k : Fin 256) : lidx_main_v57 (ix2 p q) k = ix2 p k :=
  funext fun a => Fin.ext (by match a with | ⟨0, _⟩ => rfl | ⟨1, _⟩ => rfl)
theorem ridx57 (p : Fin 50000) (q : Fin 40) (k : Fin 256) : ridx_main_v57 (ix2 p q) k = ix2 k q :=
  funext fun a => Fin.ext (by match a with | ⟨0, _⟩ => rfl | ⟨1, _⟩ => rfl)
theorem idx58 (p : Fin 50000) (q : Fin 40) : idx_main_v58 (idx_main_v59 (ix2 p q)) = ix1 q :=
  funext fun a => Fin.ext (by match a with | ⟨0, _⟩ => rfl)

/-- The reference's hidden layer at (p, q). -/
theorem hidden_apply (p : Fin 50000) (q : Fin 256) :
    val_main_v45 (F := Ideal) x0 x1 x2 x3 x4 x5 x6 x7 x8 x9 x10 x11 (ix2 p q)
      = max ((((∑ k : Fin 128, val_main_v27 (F := Ideal) x0 x1 x2 x3 x4 x5 (ix2 p k) * x6 (ix2 k q)) + x7 (ix1 q)) - x10 (ix1 q))
          * Ideal.div (x8 (ix1 q)) (Ideal.sqrt (x11 (ix1 q) + Ideal.ofBits .f32 0x3727C5AC#32)) + x9 (ix1 q)) 0 := by
  rw [val_main_v45_apply, val_main_v44_apply, val_main_v41_apply, val_main_v34_apply, val_main_v31_apply,
    val_main_v28_apply, val_main_v30_apply, val_main_v29_apply, val_main_v33_apply, val_main_v32_apply,
    val_main_v40_apply, val_main_v39_apply, val_main_v38_apply, val_main_v37_apply, val_main_v36_apply,
    val_main_v35_apply, val_main_cst_2_apply, val_main_v43_apply, val_main_v42_apply, val_main_call0_v0_apply,
    val_main_call0_cst_apply]
  simp only [Ideal.maximumf_def, Ideal.addf_def, Ideal.subf_def, Ideal.mulf_def, Ideal.hostDivf_def,
    Ideal.hostUnary_sqrt_def, Ideal.ofBits_def, Ideal.ofBits_zero_f32, lidx28, ridx28, idx29, idx32, idx39, idx42]

/-- The reference's result at (p, q). -/
theorem out_apply (p : Fin 50000) (q : Fin 40) :
    val_main_v60 (F := Ideal) x0 x1 x2 x3 x4 x5 x6 x7 x8 x9 x10 x11 x12 x13 (ix2 p q)
      = (∑ k : Fin 256, val_main_v56 (F := Ideal) x0 x1 x2 x3 x4 x5 x6 x7 x8 x9 x10 x11 (ix2 p k) * x12 (ix2 k q))
          + x13 (ix1 q) := by
  rw [val_main_v60_apply, val_main_v57_apply, val_main_v59_apply, val_main_v58_apply]
  simp only [Ideal.addf_def, lidx57, ridx57, idx58]

end Cert.ReferenceIdeal.Entry

end
-- ==== Proof.Law.lean ====
/-
  The one law that joins the two spellings of the hidden layer.

  The reference adds the bias to the product, subtracts the running mean, multiplies by γ / √(v + ε) and adds β;
  the kernel multiplies the product by the folded scale s = γ · (v + ε)^(-1/2) and adds the folded shift
  (b − μ) · s + β. For v + ε > 0 the two scales are one real number, and for a REAL scale the two affine forms
  agree for every extended real product y: an infinite y is sent by both to the same infinity (or to β when
  s = 0), so nothing has to be known about the product.
-/
import Idealize.ShloMosaic.PureOps.Ideal

noncomputable section

namespace Cert.Gin.Law

open Idealize.ShloMosaic

/-- For a real scale `s` and a real offset `d`, (y + d) · s = y · s + d · s for every extended real `y`. -/
theorem add_coe_mul_coe (y : EReal) (d s : ℝ) : (y + (d : EReal)) * (s : EReal) = y * (s : EReal) + ((d * s : ℝ) : EReal) := by
  induction y using EReal.rec with
  | bot =>
    rw [EReal.bot_add]
    rcases lt_trichotomy s 0 with hs | hs | hs
    · rw [EReal.bot_mul_coe_of_neg hs, EReal.top_add_coe]
    · subst hs; simp
    · rw [EReal.bot_mul_coe_of_pos hs, EReal.bot_add]
  | coe r => norm_cast; ring
  | top =>
    rw [EReal.top_add_coe]
    rcases lt_trichotomy s 0 with hs | hs | hs
    · rw [EReal.top_mul_coe_of_neg hs, EReal.bot_add]
    · subst hs; simp
    · rw [EReal.top_mul_coe_of_pos hs, EReal.top_add_coe]

/-- The reference's affine form is the kernel's, for a real scale: ((y + b) − μ) · s + β = y · s + ((b − μ) · s + β). -/
theorem affine_coe (y : EReal) (b μ s β : ℝ) :
    ((y + (b : EReal)) - (μ : EReal)) * (s : EReal) + (β : EReal)
      = y * (s : EReal) + (((b : EReal) - (μ : EReal)) * (s : EReal) + (β : EReal)) := by
  have h1 : (y + (b : EReal)) - (μ : EReal) = y + ((b - μ : ℝ) : EReal) := by
    rw [sub_eq_add_neg, add_assoc, ← EReal.coe_neg, ← EReal.coe_add, ← sub_eq_add_neg]
  have h2 : ((b : EReal) - (μ : EReal)) = ((b - μ : ℝ) : EReal) := by norm_cast
  rw [h1, h2, add_coe_mul_coe, add_assoc, ← EReal.coe_mul]

/-- For a real γ and a real w > 0, γ / √w on the extended reals is the real number γ · (√w)⁻¹, and so is γ · w^(-1/2). -/
theorem scale_coe (γ w : ℝ) (hw : 0 < w) :
    Ideal.div (γ : EReal) (Ideal.sqrt (w : EReal)) = ((γ * (Real.sqrt w)⁻¹ : ℝ) : EReal)
    ∧ (γ : EReal) * Ideal.rsqrt (w : EReal) = ((γ * (Real.sqrt w)⁻¹ : ℝ) : EReal) := by
  have hs : Real.sqrt w ≠ 0 := (Real.sqrt_pos.mpr hw).ne'
  constructor
  · rw [Ideal.sqrt_coe, if_neg (not_lt.mpr hw.le), Ideal.div_coe hs]
    norm_cast
    rw [one_div]
  · rw [Ideal.rsqrt_coe, if_neg (not_lt.mpr hw.le), if_neg hw.ne']
    norm_cast

/-- The hidden layer's two spellings at one entry: for real bias, mean, γ, β, a real variance v ≥ 0 and a real
    ε > 0, and ANY extended real product y. -/
theorem hidden_entry (y : EReal) (b μ γ β v ε : ℝ) (hv : 0 ≤ v) (hε : 0 < ε) :
    max (((y + (b : EReal)) - (μ : EReal)) * Ideal.div (γ : EReal) (Ideal.sqrt ((v : EReal) + (ε : EReal))) + (β : EReal)) 0
      = max (y * ((γ : EReal) * Ideal.rsqrt ((v : EReal) + (ε : EReal)))
          + (((b : EReal) - (μ : EReal)) * ((γ : EReal) * Ideal.rsqrt ((v : EReal) + (ε : EReal))) + (β : EReal))) 0 := by
  have hw : 0 < v + ε := by linarith
  rw [← EReal.coe_add, (scale_coe γ (v + ε) hw).1, (scale_coe γ (v + ε) hw).2, affine_coe]

end Cert.Gin.Law

end
-- ==== Proof.Pre.lean ====
/-
  The precondition read at an element.

  The precondition is one bit: the conjunction, over the float inputs, of "every entry has absolute value below
  +∞", and of "every entry of the second normalisation's running variance is ≥ 0". Read at an element, the first
  says the entry is a real number (on the extended reals |x| < +∞ excludes exactly the two infinities), the second
  that it is non-negative. Also here: the ε of the normalisation, the f32 nearest 1e-5, is a positive real.
-/
import proofs.«141045_j54245436949040_1_alg».proof.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.Gin.Pre

open Idealize.ShloMosaic Cert.Pre_finite_inputs

/-- The word 0x3727C5AC is the positive real 10995116 / 2^40. -/
theorem eps_pos : ∃ e : ℝ, 0 < e ∧ Ideal.ofBits .f32 0x3727C5AC#32 = (e : EReal) := by
  refine ⟨10995116 * (2 ^ 40)⁻¹, by positivity, ?_⟩
  simp [Ideal.ofBits, Ideal.ieee]

/-- An extended real whose absolute value is below +∞ is a real number. -/
theorem real_of_lt_inf (x : EReal)
    (h : FloatOps.cmpf (F := Ideal) (φ := .f32) CmpFPredicate.olt (FloatOps.hostAbsf (F := Ideal) (φ := .f32) x)
      (FloatOps.ofBits (F := Ideal) .f32 2139095040#32) = 1#1) :
    ∃ r : ℝ, x = (r : EReal) := by
  induction x using EReal.rec with
  | bot =>
    simp [Ideal.ofBits, Ideal.ieee] at h
    change Ideal.cmp CmpFPredicate.olt (max (⊥ : EReal) (-⊥)) ⊤ = 1#1 at h
    simp [Ideal.cmp] at h
  | coe r => exact ⟨r, rfl⟩
  | top =>
    simp [Ideal.ofBits, Ideal.ieee] at h
    change Ideal.cmp CmpFPredicate.olt (max (⊤ : EReal) (-⊤)) ⊤ = 1#1 at h
    simp [Ideal.cmp] at h

/-- The comparison "x ≥ 0" answering one says 0 ≤ x. -/
theorem nonneg_of_ge_zero (x : EReal)
    (h : FloatOps.cmpf (F := Ideal) (φ := .f32) CmpFPredicate.oge x (FloatOps.ofBits (F := Ideal) .f32 0#32) = 1#1) :
    0 ≤ x := by
  simp [Ideal.ofBits, Ideal.ieee] at h
  change Ideal.cmp CmpFPredicate.oge x 0 = 1#1 at h
  by_contra hx
  simp [Ideal.cmp, hx] at h

variable [Cert.Pre_finite_inputs.Facts]

instance : Subsingleton S_.Idx := ⟨fun a b => funext fun d => d.elim0⟩

/-- What the precondition says of the second layer's inputs: bias, scale, offset, running mean and running variance
    are real at every entry, and the variance is non-negative. -/
theorem decode (a0 : FVec Ideal S50000x128 .f32) (a1 : IVec S2x600000 32) (a2 a3 a4 a5 : FVec Ideal S128 .f32)
    (a6 : FVec Ideal S128x256 .f32) (a7 a8 a9 a10 a11 : FVec Ideal S256 .f32) (a12 : FVec Ideal S256x40 .f32)
    (a13 : FVec Ideal S40 .f32)
    (h : fn (F := Ideal) a0 a1 a2 a3 a4 a5 a6 a7 a8 a9 a10 a11 a12 a13 = fun _ => 1#1) (i : S256.Idx) :
    (∃ r : ℝ, a7 i = (r : EReal)) ∧ (∃ r : ℝ, a8 i = (r : EReal)) ∧ (∃ r : ℝ, a9 i = (r : EReal))
      ∧ (∃ r : ℝ, a10 i = (r : EReal)) ∧ (∃ r : ℝ, a11 i = (r : EReal)) ∧ 0 ≤ a11 i := by
  have e := congrFun h ValueIdx.ix0
  dsimp only [fn, fn_part1, fn_part2, fn_part3] at e
  simp only [andi, IntOp.andi_eq_one] at e
  obtain ⟨⟨⟨⟨⟨⟨⟨⟨⟨⟨⟨⟨⟨h0, h2⟩, h3⟩, h4⟩, h5⟩, h6⟩, h7⟩, h8⟩, h9⟩, h10⟩, h11⟩, h12⟩, h13⟩, hv⟩ := e
  have e7 := Host.reduce_andi_all _ _ _ _ _ h7 i
  have e8 := Host.reduce_andi_all _ _ _ _ _ h8 i
  have e9 := Host.reduce_andi_all _ _ _ _ _ h9 i
  have e10 := Host.reduce_andi_all _ _ _ _ _ h10 i
  have e11 := Host.reduce_andi_all _ _ _ _ _ h11 i
  have ev := Host.reduce_andi_all _ _ _ _ _ hv i
  simp only [cmpf, Host.absf, broadcastInDim, constant] at e7 e8 e9 e10 e11 ev
  exact ⟨real_of_lt_inf _ e7, real_of_lt_inf _ e8, real_of_lt_inf _ e9, real_of_lt_inf _ e10, real_of_lt_inf _ e11,
    nonneg_of_ge_zero _ ev⟩

end Cert.Gin.Pre

end
-- ==== Proof.Bridge.lean ====
/-
  The two programs compute one array.

  Hidden layer, entry (p, q): both programs take the same extended real product y = Σₖ agg(p, k) · W₁(k, q) (a change
  of float format is the identity). The reference forms ((y + b) − μ) · (γ / √(v + ε)) + β, the kernel
  y · s + ((b − μ) · s + β) with s = γ · (v + ε)^(-1/2). Under the precondition b, μ, γ, β, v are real and v ≥ 0, and
  ε is a positive real, so v + ε > 0, the two scales are one real number and the two affine forms agree for every
  extended real y; both are then rectified. The hidden layers being one array, their neighbour aggregations are one
  array. Result, entry (p, q) with q < 40: the kernel multiplies by the second weight matrix padded with zero columns
  up to 128, adds the padded bias and keeps the first 40 columns; inside those columns the padded operands are the
  operands, so the entry is Σₖ agg₂(p, k) · W₂(k, q) + b₂(q), the reference's.
-/
import proofs.«141045_j54245436949040_1_alg».proof.Proof.KernelValue
import proofs.«141045_j54245436949040_1_alg».proof.Proof.RefEntry
import proofs.«141045_j54245436949040_1_alg».proof.Proof.Law
import proofs.«141045_j54245436949040_1_alg».proof.Proof.Pre

set_option maxRecDepth 16384

noncomputable section

open scoped BigOperators

namespace Cert.KernelIdeal.Bridge

open Cert.KernelIdeal Cert.KernelIdeal.Gen Cert.KernelIdeal.Result
open Idealize.ShloMosaic Idealize.ShloMosaic.TcCoe Idealize.ShloMosaic.ValueIdx Idealize.SL.Sem
open Cert.ReferenceIdeal.Read (val_main_v27 val_main_v45 val_main_v56 val_main_v55 val_main_v52 val_main_v60)

variable [Cert.Pre_finite_inputs.Facts]
variable (m : (ℓ : Loc nD τ sig) → Buf (Elt Ideal) ℓ) (ρ : Dev nD → PrngReg)

/-- The precondition at device `c`: the one bit is set. -/
abbrev PreAt (c : Dev nD) : Prop :=
  Cert.Pre_finite_inputs.fn (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    = fun _ => 1#1

/-- The reference's hidden layer of the kernel's arguments. -/
abbrev hiddenRef (c : Dev nD) : FVec Ideal S50000x256 .f32 :=
  val_main_v45 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11))

/-- The second layer's bias, scale γ, offset β, running mean and running variance, as arrays of extended reals. -/
abbrev bias1 (c : Dev nD) : FVec Ideal S256 .f32 := m ((c.tc : Thread nD τ).loc main_arg7)
abbrev gamma1 (c : Dev nD) : FVec Ideal S256 .f32 := m ((c.tc : Thread nD τ).loc main_arg8)
abbrev beta1 (c : Dev nD) : FVec Ideal S256 .f32 := m ((c.tc : Thread nD τ).loc main_arg9)
abbrev mean1 (c : Dev nD) : FVec Ideal S256 .f32 := m ((c.tc : Thread nD τ).loc main_arg10)
abbrev var1 (c : Dev nD) : FVec Ideal S256 .f32 := m ((c.tc : Thread nD τ).loc main_arg11)

/-- The folded scale at a column. -/
theorem scale_apply (c : Dev nD) (q : Fin 256) :
    scale m c (ix1 q) = gamma1 m c (ix1 q) * Ideal.rsqrt (var1 m c (ix1 q) + Ideal.ofBits .f32 0x3727C5AC#32) := by
  simp only [scale, mulf, Host.rsqrt, addf, broadcastInDim, constant, Ideal.mulf_def, Ideal.hostUnary_rsqrt_def,
    Ideal.addf_def, Ideal.ofBits_def]

/-- The folded shift at a column. -/
theorem shift_apply (c : Dev nD) (q : Fin 256) :
    shift m c (ix1 q) = (bias1 m c (ix1 q) - mean1 m c (ix1 q)) * scale m c (ix1 q) + beta1 m c (ix1 q) := by
  simp only [shift, mulf, addf, subf, Ideal.mulf_def, Ideal.addf_def, Ideal.subf_def]

/-- The kernel's hidden layer is the reference's. -/
theorem hidden_eq_ref (c : Dev nD) (hpre : PreAt m c) : hidden m c = hiddenRef m c := by
  funext i
  obtain ⟨p, q, rfl⟩ : ∃ (p : Fin 50000) (q : Fin 256), i = ix2 p q := ⟨i 0, i 1, eq_ix2 i⟩
  obtain ⟨⟨b, hb⟩, ⟨γ, hγ⟩, ⟨β, hβ⟩, ⟨μ, hμ⟩, ⟨v, hv⟩, hv0⟩ := Cert.Gin.Pre.decode _ _ _ _ _ _ _ _ _ _ _ _ _ _ hpre (ix1 q)
  obtain ⟨ε, hε, hεq⟩ := Cert.Gin.Pre.eps_pos
  refine Eq.trans ?_ (Cert.ReferenceIdeal.Entry.hidden_apply _ _ _ _ _ _ _ _ _ _ _ _ p q).symm
  unfold Result.hidden
  rw [Cert.Gin.scaledRelu_apply, Cert.FlatRow.cast_flat_row_apply, Cert.FlatRow.cast_flat_row_apply, shift_apply, scale_apply]
  simp only [Cert.Gin.prod, truncf, Ideal.truncf_def]
  rw [hv] at hv0
  have hb' : bias1 m c (ix1 q) = (b : EReal) := hb
  have hγ' : gamma1 m c (ix1 q) = (γ : EReal) := hγ
  have hβ' : beta1 m c (ix1 q) = (β : EReal) := hβ
  have hμ' : mean1 m c (ix1 q) = (μ : EReal) := hμ
  have hv' : var1 m c (ix1 q) = (v : EReal) := hv
  rw [hb', hγ', hβ', hμ', hv', hb, hγ, hβ, hμ, hv, hεq]
  exact (Cert.Gin.Law.hidden_entry _ b μ γ β v ε (by exact_mod_cast hv0) hε).symm

/-- Aggregating the kernel's hidden layer gives the reference's aggregated hidden layer. -/
theorem agg2_eq_ref (c : Dev nD) (hpre : PreAt m c) :
    agg2 (hidden m c) (m ((c.tc : Thread nD τ).loc main_arg1))
      = val_main_v56 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) := by
  rw [hidden_eq_ref m c hpre]
  rfl

/-- The kernel's result buffer at the end of its run is the reference's result stage of the kernel's arguments. -/
theorem result_eq_ref (c : Dev nD) (hpre : PreAt m c) :
    (W9 (F := Ideal) m ρ c (Proc.devRef .tc main_v57) : FVec Ideal S50000x40 .f32)
      = val_main_v60 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) := by
  rw [result_eq]
  funext i
  obtain ⟨p, q, rfl⟩ : ∃ (p : Fin 50000) (q : Fin 40), i = ix2 p q := ⟨i 0, i 1, eq_ix2 i⟩
  rw [Cert.ReferenceIdeal.Entry.out_apply]
  refine (extractStridedSlice_apply _ _ slices_S50000x128_S50000x40_0_0 (ix2 p q) (ix2 p (⟨q.val, by omega⟩ : Fin 128))
    (fun a => by
      match a with
      | ⟨0, _⟩ => show p.val = 0 + p.val; omega
      | ⟨1, _⟩ => show q.val = 0 + q.val; omega)).trans ?_
  rw [Cert.Gin.biased_apply, entry2_bias_apply, entry2_features, agg2_eq_ref m c hpre]
  simp only [Cert.Gin.prod, truncf, Ideal.truncf_def]
  refine congrArg (· + _) (Finset.sum_congr rfl fun k _ => ?_)
  rw [entry2_weights_apply]

end Cert.KernelIdeal.Bridge

end
-- ==== Proof.lean ====
/-
  The claim: the kernel against its reference, over the extended reals.

  The network is two graph-convolution layers. With A the operator "a node's row plus the sum of the rows of the
  nodes its incoming edges start at", and N₀, N₁ the two evaluation-mode normalisations,
    reference:  out = A(relu(N₁(A(N₀ x) · W₁ + b₁))) · W₂ + b₂,
    kernel:     out = (A(relu((A(N₀ x) · W₁) · s + t)) · [W₂ 0] + [b₂ 0]) restricted to the first 40 columns,
  with s = γ₁ · (v₁ + ε)^(-1/2) and t = (b₁ − μ₁) · s + β₁ folded on the host, and both products computed row block
  by row block on the matrix unit from operands rounded to bf16 (the identity on the extended reals).
  The two agree entry by entry when the running variance v₁ is non-negative (so that v₁ + ε > 0 and s is a real
  number): the statement's precondition asks every float input to be finite and v₁ ≥ 0. At v₁ + ε = 0 the two
  spellings of the scale already differ (γ / 0 against γ · ∞), so the conjunct is needed.

  The three frames: the two kernels' by the generated frame certificates, the reference's by its generated run.
  `preserves` is trivial: the idealized kernel is the kernel's own text read over the extended reals. `algebraic`:
  the kernel's run names its result buffer as the last boundary's contents (KernelRun), those contents are read back
  to the reference's result stage of the same arguments (KernelValue, Bridge), and the reference's run ends at that
  stage (the generated run and stage modules).
-/
import proofs.«141045_j54245436949040_1_alg».proof.Defs
import proofs.«141045_j54245436949040_1_alg».proof.Proof.Gen.Kernel
import proofs.«141045_j54245436949040_1_alg».proof.Proof.Gen.Kernel.Skeleton
import proofs.«141045_j54245436949040_1_alg».proof.Proof.Gen.Kernel.Launch
import proofs.«141045_j54245436949040_1_alg».proof.Proof.Gen.Kernel.Points
import proofs.«141045_j54245436949040_1_alg».proof.Proof.Gen.Kernel.Frame
import proofs.«141045_j54245436949040_1_alg».proof.Proof.Gen.KernelIdeal
import proofs.«141045_j54245436949040_1_alg».proof.Proof.Gen.KernelIdeal.Skeleton
import proofs.«141045_j54245436949040_1_alg».proof.Proof.Gen.KernelIdeal.Launch
import proofs.«141045_j54245436949040_1_alg».proof.Proof.Gen.KernelIdeal.Points
import proofs.«141045_j54245436949040_1_alg».proof.Proof.Gen.KernelIdeal.Frame
import proofs.«141045_j54245436949040_1_alg».proof.Proof.Gen.ReferenceIdeal
import proofs.«141045_j54245436949040_1_alg».proof.Proof.Gen.Pre_finite_inputs
import proofs.«141045_j54245436949040_1_alg».proof.Proof.Gen.ReferenceIdeal.Run
import proofs.«141045_j54245436949040_1_alg».proof.Proof.Gen.ReferenceIdeal.Read
import proofs.«141045_j54245436949040_1_alg».proof.Proof.KernelRun
import proofs.«141045_j54245436949040_1_alg».proof.Proof.Bridge
import Idealize.ShloMosaic.Adequacy
import Idealize.ShloMosaic.Init

noncomputable section

namespace Cert.Proof

open Idealize.ShloMosaic Idealize.SL.Sem

namespace Claims

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the reference's result stage of the (agreeing) arguments. -/
theorem algebraic : Cert.algebraic_KernelIdeal_ReferenceIdeal := by
  intro m ρ m' ρ' hpre hagree
  refine ⟨fun c => Cert.ReferenceIdeal.Read.val_main_v60 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.Bridge.result_eq_ref m ρ c (hpre c)), (h c).2⟩)
      (Cert.KernelIdeal.Gen.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v60_eq]
    obtain ⟨e0, e1, e2, e3, e4, e5, e6, e7, e8, e9, e10, e11, e12, e13⟩ := hagree c
    rw [e0, e1, e2, e3, e4, e5, e6, e7, e8, e9, e10, e11, e12, e13]

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference_ideal, Claims.preserves, Claims.algebraic⟩

end Cert.Proof

end
